-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x32 : Shape := ⟨2, ![16384, 32]⟩
abbrev S100000x256 : Shape := ⟨2, ![100000, 256]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : IVec S16384 32) (main_arg1 : IVec S16384x32 32) (main_arg2 : FVec F S100000x256 .f32) (main_arg3 : FVec F S256x256 .f32) (main_arg4 : FVec F S256 .f32) (main_arg5 : FVec F S256x256 .f32) (main_arg6 : FVec F S256 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S16384 : Shape := ⟨1, ![16384]⟩
abbrev S16384x32 : Shape := ⟨2, ![16384, 32]⟩
abbrev S100000x256 : Shape := ⟨2, ![100000, 256]⟩
abbrev S256x256 : Shape := ⟨2, ![256, 256]⟩
abbrev S256 : Shape := ⟨1, ![256]⟩
abbrev S_ : Shape := ⟨0, ![]⟩
abbrev S16384x1 : Shape := ⟨2, ![16384, 1]⟩
abbrev S16384x256 : Shape := ⟨2, ![16384, 256]⟩
abbrev S16384x32x1 : Shape := ⟨3, ![16384, 32, 1]⟩
abbrev S16384x32x256 : Shape := ⟨3, ![16384, 32, 256]⟩
abbrev S1x256 : Shape := ⟨2, ![1, 256]⟩
abbrev S16384x512 : Shape := ⟨2, ![16384, 512]⟩
abbrev S2048x256 : Shape := ⟨2, ![2048, 256]⟩
abbrev S2048x512 : Shape := ⟨2, ![2048, 512]⟩

abbrev nBuf : Space → Nat
  | .hbm => 39
  | .vmem => 10
  | .smem => 0
  | _ => 0

abbrev bufTy : (tb : Table) → Fin (tcTables nBuf tb) → BufTy
  | .hbm, ⟨0, _⟩ => ⟨S16384, .i32⟩
  | .hbm, ⟨1, _⟩ => ⟨S16384x32, .i32⟩
  | .hbm, ⟨2, _⟩ => ⟨S100000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x256, .f32⟩
  | .hbm, ⟨16, _⟩ => ⟨S16384x256, .bf16⟩
  | .hbm, ⟨17, _⟩ => ⟨S_, .i32⟩
  | .hbm, ⟨18, _⟩ => ⟨S16384x32, .i32⟩
  | .hbm, ⟨19, _⟩ => ⟨S16384x32, .i1⟩
  | .hbm, ⟨20, _⟩ => ⟨S_, .i32⟩
  | .hbm, ⟨21, _⟩ => ⟨S16384x32, .i32⟩
  | .hbm, ⟨22, _⟩ => ⟨S16384x32, .i32⟩
  | .hbm, ⟨23, _⟩ => ⟨S16384x32, .i32⟩
  | .hbm, ⟨24, _⟩ => ⟨S16384x32x1, .i32⟩
  | .hbm, ⟨25, _⟩ => ⟨S16384x32x256, .f32⟩
  | .hbm, ⟨26, _⟩ => ⟨S_, .f32⟩
  | .hbm, ⟨27, _⟩ => ⟨S16384x256, .f32⟩
  | .hbm, ⟨28, _⟩ => ⟨S_, .f32⟩
  | .hbm, ⟨29, _⟩ => ⟨S16384x256, .f32⟩
  | .hbm, ⟨30, _⟩ => ⟨S16384x256, .f32⟩
  | .hbm, ⟨31, _⟩ => ⟨S16384x256, .bf16⟩
  | .hbm, ⟨32, _⟩ => ⟨S256x256, .f32⟩
  | .hbm, ⟨33, _⟩ => ⟨S256x256, .bf16⟩
  | .hbm, ⟨34, _⟩ => ⟨S256x256, .f32⟩
  | .hbm, ⟨35, _⟩ => ⟨S256x256, .bf16⟩
  | .hbm, ⟨36, _⟩ => ⟨S1x256, .f32⟩
  | .hbm, ⟨37, _⟩ => ⟨S1x256, .f32⟩
  | .hbm, ⟨38, _⟩ => ⟨S16384x512, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S1x256, .f32⟩
  | .local _ .vmem, ⟨8, _⟩ => ⟨S2048x512, .f32⟩
  | .local _ .vmem, ⟨9, _⟩ => ⟨S2048x512, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  reducesTo_S16384x32x256_S16384x256_d1 : S16384x32x256.ReducesTo [1] S16384x256
  h_S_ : 0 < S_.numel
  bcast_S_S16384x256 : S_.BroadcastsInDim S16384x256 (![] : Fin 0 → Fin S16384x256.rank)
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x512_S2048x256_0_0 : ∀ a, (![0, 0] : Fin 2 → Nat) a + S2048x256.size a ≤ S2048x512.size a
  inb_S2048x512_S2048x256_0_256 : ∀ a, (![0, 256] : Fin 2 → Nat) a + S2048x256.size a ≤ S2048x512.size a
  gather_S100000x256_S16384x1_S16384x256_1_0_n_n_0_1_1256_wf : GatherDims.WF S100000x256 S16384x1 S16384x256 [1] [0] [] [0] [] 1 ![1, 256]
  gather_S100000x256_S16384x32x1_S16384x32x256_2_0_n_n_0_2_1256_wf : GatherDims.WF S100000x256 S16384x32x1 S16384x32x256 [2] [0] [] [0] [] 2 ![1, 256]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .bf16 = 32 ∨ (Rect.block (s := S16384x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .bf16 = 32 ∨ (Rect.block (s := S16384x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S16384x512.size a
  hwx0_6 : ∀ i : grid0.Coords, EltTy.bits .f32 = 32 ∨ (Rect.block (s := S16384x512) S2048x512.size (cc0_transform_6 i) (hinb0_6 i)).WholeWords (EltTy.packing .f32)

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S100000x256_S16384x32x1_S16384x32x256_2_0_n_n_0_2_1256 : GatherDims S100000x256 S16384x32x1 S16384x32x256 where
  offsetDims := [2]
  collapsedSliceDims := [0]
  operandBatchingDims := []
  startIndicesBatchingDims := []
  startIndexMap := [0]
  indexVectorDim := 2
  sliceSizes := ![1, 256]
  wf := gather_S100000x256_S16384x32x1_S16384x32x256_2_0_n_n_0_2_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v7) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384 : Shape := ⟨1, ![16384]⟩
abbrev S16384x32 : Shape := ⟨2, ![16384, 32]⟩
abbrev S100000x256 : Shape := ⟨2, ![100000, 256]⟩
abbrev S256x256 : Shape := ⟨2, ![256, 256]⟩
abbrev S256 : Shape := ⟨1, ![256]⟩
abbrev S_ : Shape := ⟨0, ![]⟩
abbrev S16384x1 : Shape := ⟨2, ![16384, 1]⟩
abbrev S16384x256 : Shape := ⟨2, ![16384, 256]⟩
abbrev S16384x32x1 : Shape := ⟨3, ![16384, 32, 1]⟩
abbrev S16384x32x256 : Shape := ⟨3, ![16384, 32, 256]⟩
abbrev S1x256 : Shape := ⟨2, ![1, 256]⟩
abbrev S16384x512 : Shape := ⟨2, ![16384, 512]⟩

abbrev nBuf : Space → Nat
  | .hbm => 44
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x32, .i32⟩
  | .hbm, ⟨2, _⟩ => ⟨S100000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x256, .f32⟩
  | .hbm, ⟨16, _⟩ => ⟨S_, .i32⟩
  | .hbm, ⟨17, _⟩ => ⟨S16384x32, .i32⟩
  | .hbm, ⟨18, _⟩ => ⟨S16384x32, .i1⟩
  | .hbm, ⟨19, _⟩ => ⟨S_, .i32⟩
  | .hbm, ⟨20, _⟩ => ⟨S16384x32, .i32⟩
  | .hbm, ⟨21, _⟩ => ⟨S16384x32, .i32⟩
  | .hbm, ⟨22, _⟩ => ⟨S16384x32, .i32⟩
  | .hbm, ⟨23, _⟩ => ⟨S16384x32x1, .i32⟩
  | .hbm, ⟨24, _⟩ => ⟨S16384x32x256, .f32⟩
  | .hbm, ⟨25, _⟩ => ⟨S_, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S256x256, .f32⟩
  | .hbm, ⟨31, _⟩ => ⟨S16384x256, .f32⟩
  | .hbm, ⟨32, _⟩ => ⟨S1x256, .f32⟩
  | .hbm, ⟨33, _⟩ => ⟨S16384x256, .f32⟩
  | .hbm, ⟨34, _⟩ => ⟨S16384x256, .f32⟩
  | .hbm, ⟨35, _⟩ => ⟨S256x256, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  reducesTo_S16384x32x256_S16384x256_d1 : S16384x32x256.ReducesTo [1] S16384x256
  h_S_ : 0 < S_.numel
  bcast_S_S16384x256 : S_.BroadcastsInDim S16384x256 (![] : Fin 0 → Fin S16384x256.rank)
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  concatenates_S16384x256_S16384x256_S16384x512_d1 : Shape.Concatenates [S16384x256, S16384x256] S16384x512 1
  bcast_S_S16384x512 : S_.BroadcastsInDim S16384x512 (![] : Fin 0 → Fin S16384x512.rank)
  gather_S100000x256_S16384x1_S16384x256_1_0_n_n_0_1_1256_wf : GatherDims.WF S100000x256 S16384x1 S16384x256 [1] [0] [] [0] [] 1 ![1, 256]
  gather_S100000x256_S16384x32x1_S16384x32x256_2_0_n_n_0_2_1256_wf : GatherDims.WF S100000x256 S16384x32x1 S16384x32x256 [2] [0] [] [0] [] 2 ![1, 256]
  dot_S16384x256_S256x256_S16384x256_1_0_0_1_n_n_wf : DotDims.WF S16384x256 S256x256 S16384x256 [1] [0] [0] [1] [] []

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S100000x256_S16384x32x1_S16384x32x256_2_0_n_n_0_2_1256 : GatherDims S100000x256 S16384x32x1 S16384x32x256 where
  offsetDims := [2]
  collapsedSliceDims := [0]
  operandBatchingDims := []
  startIndicesBatchingDims := []
  startIndexMap := [0]
  indexVectorDim := 2
  sliceSizes := ![1, 256]
  wf := gather_S100000x256_S16384x32x1_S16384x32x256_2_0_n_n_0_2_1256_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.AffineRelu.lean ====
/-
  The function both programs compute, stated once over abstract arrays of extended reals.

  A row `r` of the result has 512 entries. The first 256 are `max (x_r · A + b) 0` for the row `x_r` of a
  first feature matrix `X`, a 256 × 256 matrix `A` (read as `A (k, q)`) and a bias `b`; the last 256 are the same
  affine map followed by the same clamp at zero for a second feature matrix `N`, a second matrix `B` and a second
  bias. Nothing here depends on where `X` and `N` come from (an embedding lookup and a mean of embedding lookups):
  the two programs obtain them by the same host operations, so the comparison never opens them.
-/
import Idealize.ShloMosaic.PureOps.Ideal
import Idealize.ShloMosaic.Lib.ValueIdx

noncomputable section

open scoped BigOperators

namespace Cert.AffineRelu

open Idealize.ShloMosaic Idealize.ShloMosaic.ValueIdx

/-- One half at row `r`, column `q`: the inner product of row `r` of `X` with column `q` of `A`, plus the bias at `q`,
    clamped below at zero. -/
def half (X : (⟨2, ![16384, 256]⟩ : Shape).Idx → EReal) (A : (⟨2, ![256, 256]⟩ : Shape).Idx → EReal)
    (b : Fin 256 → EReal) (r : Fin 16384) (q : Fin 256) : EReal :=
  max ((∑ k : Fin 256, X (ix2 r k) * A (ix2 k q)) + b q) 0

/-- The whole result: columns below 256 are the first half, the others the second half at the column less 256. -/
def both (X N : (⟨2, ![16384, 256]⟩ : Shape).Idx → EReal) (A B : (⟨2, ![256, 256]⟩ : Shape).Idx → EReal)
    (bs bn : Fin 256 → EReal) : (⟨2, ![16384, 512]⟩ : Shape).Idx → EReal := fun i =>
  if h : (i 1).val < 256 then half X A bs ⟨(i 0).val, idx2_lt0 i⟩ ⟨(i 1).val, h⟩
  else half N B bn ⟨(i 0).val, idx2_lt0 i⟩ ⟨(i 1).val - 256, by have := idx2_lt1 i; omega⟩

/-- At a column of the first half. -/
theorem both_left (X N : (⟨2, ![16384, 256]⟩ : Shape).Idx → EReal) (A B : (⟨2, ![256, 256]⟩ : Shape).Idx → EReal)
    (bs bn : Fin 256 → EReal) (i : (⟨2, ![16384, 512]⟩ : Shape).Idx) (r : Fin 16384) (q : Fin 256)
    (h0 : (i 0).val = r.val) (h1 : (i 1).val = q.val) : both X N A B bs bn i = half X A bs r q := by
  unfold both
  have hq : (i 1).val < 256 := by have := q.isLt; omega
  rw [dif_pos hq]
  congr 1 <;> exact Fin.ext (by assumption)

/-- At a column of the second half. -/
theorem both_right (X N : (⟨2, ![16384, 256]⟩ : Shape).Idx → EReal) (A B : (⟨2, ![256, 256]⟩ : Shape).Idx → EReal)
    (bs bn : Fin 256 → EReal) (i : (⟨2, ![16384, 512]⟩ : Shape).Idx) (r : Fin 16384) (q : Fin 256)
    (h0 : (i 0).val = r.val) (h1 : (i 1).val = q.val + 256) : both X N A B bs bn i = half N B bn r q := by
  unfold both
  have hq : ¬ (i 1).val < 256 := by omega
  rw [dif_neg hq]
  congr 1
  · exact Fin.ext h0
  · exact Fin.ext (by show (i 1).val - 256 = q.val; omega)

end Cert.AffineRelu

end
-- ==== Proof.HostPrefix.lean ====
/-
  What the kernel's six operand arrays hold when the kernel is launched, as terms of the program's arguments.

  Before the launch the program looks up the rows of the embedding table named by the first index vector (negative
  indices wrapped once by the table's height), looks up the rows named by the index matrix and averages them over the
  32 neighbours (a sum from zero, then a quotient by 32), transposes both weight matrices, and recasts both bias
  vectors as one-row matrices. Four of the six are then narrowed to a shorter float format, which changes nothing over
  the extended reals.
-/
import proofs.«115470_j69475390980334_2_alg».proof.Proof.Gen.KernelIdeal.Frame
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo

variable {F : FTy → Type} [FloatOps F]

/-- The looked-up rows: row `r` is the table's row named by entry `r` of the index vector. -/
def selfRows (tbl : (⟨S100000x256, .f32⟩ : BufTy).Contents (Elt F)) (ids : (⟨S16384, .i32⟩ : BufTy).Contents (Elt F)) :
    (⟨S16384x256, .f32⟩ : BufTy).Contents (Elt F) :=
  Host.gather gather_S100000x256_S16384x1_S16384x256_1_0_n_n_0_1_1256 tbl
    (broadcastInDim S16384x1 ![0] bcast_S16384_S16384x1_0
      (select (cmpi .slt ids (broadcastInDim S16384 ![] bcast_S_S16384 (constantI S_ 32 0#32)))
        (addi ids (broadcastInDim S16384 ![] bcast_S_S16384 (constantI S_ 32 100000#32))) ids))

/-- The neighbours' mean: the rows named by row `r` of the index matrix, summed from zero and divided by 32. -/
def neighMean (tbl : (⟨S100000x256, .f32⟩ : BufTy).Contents (Elt F)) (ids : (⟨S16384x32, .i32⟩ : BufTy).Contents (Elt F)) :
    (⟨S16384x256, .f32⟩ : BufTy).Contents (Elt F) :=
  Host.divf
    (Host.reduceAdd
      (Host.gather gather_S100000x256_S16384x32x1_S16384x32x256_2_0_n_n_0_2_1256 tbl
        (broadcastInDim S16384x32x1 ![0, 1] bcast_S16384x32_S16384x32x1_0_1
          (select (cmpi .slt ids (broadcastInDim S16384x32 ![] bcast_S_S16384x32 (constantI S_ 32 0#32)))
            (addi ids (broadcastInDim S16384x32 ![] bcast_S_S16384x32 (constantI S_ 32 100000#32))) ids)))
      (constant (F := F) S_ .f32 0x00000000#32) reducesTo_S16384x32x256_S16384x256_d1 h_S_)
    (broadcastInDim S16384x256 ![] bcast_S_S16384x256 (constant (F := F) S_ .f32 0x42000000#32))

variable (m : (ℓ : Loc nD τ sig) → Buf (Elt F) ℓ)

set_option maxHeartbeats 2000000 in
/-- Operand 0: the looked-up rows, narrowed. -/
theorem operand0 (c : Dev nD) :
    V m c main_v7 = truncf .bf16 (selfRows (m ((c.tc : Thread nD τ).loc main_arg2)) (m ((c.tc : Thread nD τ).loc main_arg0))) bitsLt_bf16_f32 := by
  unfold selfRows
  dsimp only [Gen.V, Gen.hostOps0]
  after_results_simp <;> rfl

set_option maxHeartbeats 2000000 in
/-- Operand 1: the neighbours' mean, narrowed. -/
theorem operand1 (c : Dev nD) :
    V m c main_v18 = truncf .bf16 (neighMean (m ((c.tc : Thread nD τ).loc main_arg2)) (m ((c.tc : Thread nD τ).loc main_arg1))) bitsLt_bf16_f32 := by
  unfold neighMean
  dsimp only [Gen.V, Gen.hostOps0]
  after_results_simp <;> rfl

set_option maxHeartbeats 2000000 in
/-- Operand 2: the first weight matrix transposed, narrowed. -/
theorem operand2 (c : Dev nD) :
    V m c main_v20 = truncf .bf16 (transpose S256x256 [1, 0] (m ((c.tc : Thread nD τ).loc main_arg3)) transposes_S256x256_S256x256_1_0) bitsLt_bf16_f32 := by
  dsimp only [Gen.V, Gen.hostOps0]
  after_results_simp <;> rfl

set_option maxHeartbeats 2000000 in
/-- Operand 3: the second weight matrix transposed, narrowed. -/
theorem operand3 (c : Dev nD) :
    V m c main_v22 = truncf .bf16 (transpose S256x256 [1, 0] (m ((c.tc : Thread nD τ).loc main_arg5)) transposes_S256x256_S256x256_1_0) bitsLt_bf16_f32 := by
  dsimp only [Gen.V, Gen.hostOps0]
  after_results_simp <;> rfl

set_option maxHeartbeats 2000000 in
/-- Operand 4: the first bias as a one-row matrix. -/
theorem operand4 (c : Dev nD) :
    V m c main_v23 = shapeCast S1x256 (m ((c.tc : Thread nD τ).loc main_arg4)) shapeCasts_S256_S1x256 := by
  dsimp only [Gen.V, Gen.hostOps0]
  after_results_simp <;> rfl

set_option maxHeartbeats 2000000 in
/-- Operand 5: the second bias as a one-row matrix. -/
theorem operand5 (c : Dev nD) :
    V m c main_v24 = shapeCast S1x256 (m ((c.tc : Thread nD τ).loc main_arg6)) shapeCasts_S256_S1x256 := by
  dsimp only [Gen.V, Gen.hostOps0]
  after_results_simp <;> rfl

end Cert.KernelIdeal.Operands

end
-- ==== Proof.BlockBody.lean ====
/-
  What the kernel body leaves in its output block, entry by entry, over the extended reals.

  The body computes two products of a 2048 × 256 block of rows with a 256 × 256 matrix, adds a bias row to each,
  clamps both below at zero, and stores the first into columns 0–255 and the second into columns 256–511 of the
  2048 × 512 output block. A matrix product into a zero accumulator is, entry by entry, the sum over the contracted
  coordinate of the products of the factors; a bias row broadcast down the rows is read at row 0.
-/
import proofs.«115470_j69475390980334_2_alg».proof.Proof.Gen.KernelIdeal.Frame
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- One entry of one half of the block: row `p` of `x` against column `q` of `w`, plus the bias at `q`, clamped at zero. -/
def tile (x : FVec Ideal S2048x256 .bf16) (w : FVec Ideal S256x256 .bf16) (b : FVec Ideal S1x256 .f32)
    (p : Fin 2048) (q : Fin 256) : EReal :=
  max ((∑ k : Fin 256, x (ix2 p k) * w (ix2 k q)) + b (ix2 0 q)) 0

/-- Where the product's factors sit: at output entry `i` and contracted coordinate `κ` the left factor is at
    (row of `i`, `κ`) and the right factor at (`κ`, column of `i`). -/
theorem lhs_row (i : S2048x256.Idx) (κ : dot_S2048x256_S256x256_S2048x256_1_0_0_1_n_n.contr.Idx) :
    (dot_S2048x256_S256x256_S2048x256_1_0_0_1_n_n.lhsIdx i κ 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem lhs_col (i : S2048x256.Idx) (κ : dot_S2048x256_S256x256_S2048x256_1_0_0_1_n_n.contr.Idx) :
    (dot_S2048x256_S256x256_S2048x256_1_0_0_1_n_n.lhsIdx i κ 1).val = (κ ⟨0, by decide⟩).val :=
  dot_S2048x256_S256x256_S2048x256_1_0_0_1_n_n.lhsIdx_val_of_single rfl i κ
theorem rhs_row (i : S2048x256.Idx) (κ : dot_S2048x256_S256x256_S2048x256_1_0_0_1_n_n.contr.Idx) :
    (dot_S2048x256_S256x256_S2048x256_1_0_0_1_n_n.rhsIdx i κ 0).val = (κ ⟨0, by decide⟩).val :=
  dot_S2048x256_S256x256_S2048x256_1_0_0_1_n_n.rhsIdx_val_of_single rfl i κ
theorem rhs_col (i : S2048x256.Idx) (κ : dot_S2048x256_S256x256_S2048x256_1_0_0_1_n_n.contr.Idx) :
    (dot_S2048x256_S256x256_S2048x256_1_0_0_1_n_n.rhsIdx i κ 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product of a block of rows with a square matrix, into a zero accumulator, at (p, q): the sum over the
    contracted coordinate `k` of `x (p, k) · w (k, q)`. -/
theorem product_apply (x : FVec Ideal S2048x256 .bf16) (w : FVec Ideal S256x256 .bf16) (p : Fin 2048) (q : Fin 256) :
    matmul dot_S2048x256_S256x256_S2048x256_1_0_0_1_n_n none x w (constant (F := Ideal) S2048x256 .f32 0x00000000#32) (ix2 p q)
      = ∑ k : Fin 256, x (ix2 p k) * w (ix2 k q) := by
  refine (Ideal.matmul_constant_zero_apply dot_S2048x256_S256x256_S2048x256_1_0_0_1_n_n none x w (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q)
      ((contrEquiv1 dot_S2048x256_S256x256_S2048x256_1_0_0_1_n_n 256 rfl rfl).symm k) = ix2 p k := funext fun a => Fin.ext (by
    match a with
    | ⟨0, _⟩ => exact lhs_row _ _
    | ⟨1, _⟩ => exact (lhs_col _ _).trans hk)
  have er : dot_S2048x256_S256x256_S2048x256_1_0_0_1_n_n.rhsIdx (ix2 p q)
      ((contrEquiv1 dot_S2048x256_S256x256_S2048x256_1_0_0_1_n_n 256 rfl rfl).symm k) = ix2 k q := funext fun a => Fin.ext (by
    match a with
    | ⟨0, _⟩ => exact (rhs_row _ _).trans hk
    | ⟨1, _⟩ => exact rhs_col _ _)
  rw [el, er]

/-- A bias row broadcast down 2048 rows, at (p, q), is the row at (0, q). -/
theorem bias_apply (b : FVec Ideal S1x256 .f32) (p : Fin 2048) (q : Fin 256) :
    broadcastTo S2048x256 b broadcasts_S1x256_S2048x256 (ix2 p q) = b (ix2 0 q) :=
  broadcastTo_apply b broadcasts_S1x256_S2048x256 (ix2 p q) (ix2 0 q) (fun a => by
    match a with
    | ⟨0, _⟩ => rfl
    | ⟨1, _⟩ => rfl)

/-- The first store's value at (p, q). -/
theorem pay1_apply (x : Vec Ideal S2048x256 .bf16) (w : Vec Ideal S256x256 .bf16) (b : Vec Ideal S1x256 .f32)
    (p : Fin 2048) (q : Fin 256) : k0_pay1 (F := Ideal) x w b (ix2 p q) = tile x w b p q := by
  unfold k0_pay1 tile
  show max (matmul dot_S2048x256_S256x256_S2048x256_1_0_0_1_n_n none (shapeCast S2048x256 x shapeCasts_S2048x256_S2048x256)
        (shapeCast S256x256 w shapeCasts_S256x256_S256x256) (constant (F := Ideal) S2048x256 .f32 0x00000000#32) (ix2 p q)
      + broadcastTo S2048x256 (shapeCast S1x256 b shapeCasts_S1x256_S1x256) broadcasts_S1x256_S2048x256 (ix2 p q))
      (Ideal.ofBits .f32 0x00000000#32) = _
  rw [shapeCast_self, shapeCast_self, shapeCast_self, product_apply, bias_apply, Ideal.ofBits_zero_f32]

/-- The second store's value at (p, q): the same function of the second triple of blocks. -/
theorem pay2_apply (x : Vec Ideal S2048x256 .bf16) (w : Vec Ideal S256x256 .bf16) (b : Vec Ideal S1x256 .f32)
    (p : Fin 2048) (q : Fin 256) : k0_pay2 (F := Ideal) x w b (ix2 p q) = tile x w b p q := by
  unfold k0_pay2 tile
  show max (matmul dot_S2048x256_S256x256_S2048x256_1_0_0_1_n_n none (shapeCast S2048x256 x shapeCasts_S2048x256_S2048x256)
        (shapeCast S256x256 w shapeCasts_S256x256_S256x256) (constant (F := Ideal) S2048x256 .f32 0x00000000#32) (ix2 p q)
      + broadcastTo S2048x256 (shapeCast S1x256 b shapeCasts_S1x256_S1x256) broadcasts_S1x256_S2048x256 (ix2 p q))
      (Ideal.ofBits .f32 0x00000000#32) = _
  rw [shapeCast_self, shapeCast_self, shapeCast_self, product_apply, bias_apply, Ideal.ofBits_zero_f32]

end Cert.KernelIdeal.Block

end
-- ==== Proof.KernelWhole.lean ====
/-
  From the blocks the kernel writes back to the whole result array.

  Grid point `t` (eight of them) reads rows 2048·t … 2048·t + 2047 of the two feature matrices and the whole of both
  weight matrices and both bias rows, and writes back rows 2048·t … 2048·t + 2047 of the 16384 × 512 result. The body's
  two stores tile its 2048 × 512 block: columns 0–255 hold the first clamped affine map of the block's rows, columns
  256–511 the second. So what point `t` writes back is block `t` of the two clamped affine maps side by side, of the
  WHOLE feature matrices; the eight blocks cover every row; hence the array ends holding exactly that function.
-/
import proofs.«115470_j69475390980334_2_alg».proof.Proof.Gen.KernelIdeal.Value
import proofs.«115470_j69475390980334_2_alg».proof.Proof.AffineRelu
import proofs.«115470_j69475390980334_2_alg».proof.Proof.BlockBody
import Idealize.ShloMosaic.Lib.ValueIdx
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.AffineRelu Cert.KernelIdeal.Block
open Idealize.ShloMosaic.Pipeline (Dat)

/-! ## The block the body leaves, as one function of its entry -/

/-- The 2048 × 512 block as one function: the first tile at columns below 256, the second at the column less 256. -/
def blockFn (x0 x1 : FVec Ideal S2048x256 .bf16) (x2 x3 : FVec Ideal S256x256 .bf16) (x4 x5 : FVec Ideal S1x256 .f32) :
    S2048x512.Idx → EReal := fun y =>
  if h : (y 1).val < 256 then tile x0 x2 x4 ⟨(y 0).val, idx2_lt0 y⟩ ⟨(y 1).val, h⟩
  else tile x1 x3 x5 ⟨(y 0).val, idx2_lt0 y⟩ ⟨(y 1).val - 256, by have := idx2_lt1 y; omega⟩

theorem blockFn_left (x0 x1 : FVec Ideal S2048x256 .bf16) (x2 x3 : FVec Ideal S256x256 .bf16) (x4 x5 : FVec Ideal S1x256 .f32)
    (y : S2048x512.Idx) (p : Fin 2048) (q : Fin 256) (h0 : (y 0).val = p.val) (h1 : (y 1).val = q.val) :
    blockFn x0 x1 x2 x3 x4 x5 y = tile x0 x2 x4 p q := by
  unfold blockFn
  have hq : (y 1).val < 256 := by have := q.isLt; omega
  rw [dif_pos hq]
  congr 1 <;> exact Fin.ext (by assumption)

theorem blockFn_right (x0 x1 : FVec Ideal S2048x256 .bf16) (x2 x3 : FVec Ideal S256x256 .bf16) (x4 x5 : FVec Ideal S1x256 .f32)
    (y : S2048x512.Idx) (p : Fin 2048) (q : Fin 256) (h0 : (y 0).val = p.val) (h1 : (y 1).val = q.val + 256) :
    blockFn x0 x1 x2 x3 x4 x5 y = tile x1 x3 x5 p q := by
  unfold blockFn
  have hq : ¬ (y 1).val < 256 := by omega
  rw [dif_neg hq]
  congr 1
  · exact Fin.ext h0
  · exact Fin.ext (by show (y 1).val - 256 = q.val; omega)

theorem zero_offsets : (![0, 0] : Fin 2 → Nat) = fun _ => 0 := funext fun a => by fin_cases a <;> rfl

/-- The body's two stores, one per half, leave the block function. -/
theorem block_entry (x0 x1 : Vec Ideal S2048x256 .bf16) (x2 x3 : Vec Ideal S256x256 .bf16) (x4 x5 : Vec Ideal S1x256 .f32)
    (y : S2048x512.Idx) : out0_6 x0 x1 x2 x3 x4 x5 y = blockFn x0 x1 x2 x3 x4 x5 y := by
  unfold out0_6
  simp only [View.ld_unit_zero (S := S2048x256) zero_offsets, View.ld_unit_zero (S := S256x256) zero_offsets,
    View.ld_unit_zero (S := S1x256) zero_offsets]
  refine View.canon_apply_of_pieces (Val := Elt Ideal) (S := S2048x512) (e := EltTy.f32) (blockFn x0 x1 x2 x3 x4 x5) _ ?_ y (cover0_6 _ _ y)
  intro pc hpc x
  simp only [List.mem_cons, List.mem_singleton, List.not_mem_nil, or_false] at hpc
  rcases hpc with rfl | rfl
  · obtain ⟨p, q, rfl⟩ : ∃ (p : Fin 2048) (q : Fin 256), x = ix2 p q := ⟨x 0, x 1, eq_ix2 x⟩
    refine (pay2_apply x1 x3 x5 p q).trans (blockFn_right x0 x1 x2 x3 x4 x5 _ p q ?_ ?_).symm
    · show 0 + 1 * p.val = p.val; omega
    · show 256 + 1 * q.val = q.val + 256; omega
  · obtain ⟨p, q, rfl⟩ : ∃ (p : Fin 2048) (q : Fin 256), x = ix2 p q := ⟨x 0, x 1, eq_ix2 x⟩
    refine (pay1_apply x0 x2 x4 p q).trans (blockFn_left x0 x1 x2 x3 x4 x5 _ p q ?_ ?_).symm
    · show 0 + 1 * p.val = p.val; omega
    · show 0 + 1 * q.val = q.val; omega

/-- A block whose rows are rows `base + p` of whole feature matrices `X`, `N` is, entry by entry, the two clamped
    affine maps of `X` and `N` at row `base + p`. -/
theorem block_is_both (X N : (⟨2, ![16384, 256]⟩ : Shape).Idx → EReal) (A B : FVec Ideal S256x256 .bf16) (b4 b5 : FVec Ideal S1x256 .f32)
    (x0 x1 : FVec Ideal S2048x256 .bf16) (base : Nat) (hbase : base + 2048 ≤ 16384)
    (h0 : ∀ (p : Fin 2048) (k : Fin 256), x0 (ix2 p k) = X (ix2 ⟨base + p.val, by have := p.isLt; omega⟩ k))
    (h1 : ∀ (p : Fin 2048) (k : Fin 256), x1 (ix2 p k) = N (ix2 ⟨base + p.val, by have := p.isLt; omega⟩ k))
    (y : S2048x512.Idx) (i : S16384x512.Idx) (hi0 : (i 0).val = base + (y 0).val) (hi1 : (i 1).val = (y 1).val) :
    blockFn x0 x1 A B b4 b5 y = both X N A B (fun q => b4 (ix2 0 q)) (fun q => b5 (ix2 0 q)) i := by
  have hy0 := idx2_lt0 y
  have hy1 := idx2_lt1 y
  by_cases h : (y 1).val < 256
  · rw [blockFn_left x0 x1 A B b4 b5 y ⟨(y 0).val, hy0⟩ ⟨(y 1).val, h⟩ rfl rfl,
      both_left X N A B _ _ i ⟨base + (y 0).val, by omega⟩ ⟨(y 1).val, h⟩ hi0 hi1]
    unfold tile half
    simp only [h0]
  · have h2 : (y 1).val - 256 < 256 := by omega
    rw [blockFn_right x0 x1 A B b4 b5 y ⟨(y 0).val, hy0⟩ ⟨(y 1).val - 256, h2⟩ rfl (by show (y 1).val = (y 1).val - 256 + 256; omega),
      both_right X N A B _ _ i ⟨base + (y 0).val, by omega⟩ ⟨(y 1).val - 256, h2⟩ hi0 (by show (i 1).val = (y 1).val - 256 + 256; omega)]
    unfold tile half
    simp only [h1]

/-! ## Which rows each grid point reads and writes -/

/-- The printed index maps over the eight points: the two feature windows move with the output window down the rows;
    every other window stays at block zero; the output's row-block index is below eight. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 7 ∧ win0_6.index t (1 : Fin 2) = 0 :=
  (by decide +kernel : ∀ t : Fin grid0.N, _)

/-- Every row block is some point's. -/
theorem idx_onto : ∀ q0 : Fin 8, ∃ t : Fin cfg0.N, win0_6.index t = ![q0.val, 0] :=
  (by decide +kernel : ∀ q0 : Fin 8, ∃ t : Fin grid0.N, win0_6.index t = ![q0.val, 0])

variable (m : (ℓ : Loc nD τ sig) → Buf (Elt Ideal) ℓ) (ρ : Dev nD → PrngReg)

/-- The first feature window's block at point `t`: rows from 2048 times the output's row-block index. -/
theorem feats0_read (c : Dev nD) (t : Fin cfg0.N) (p : Fin 2048) (k : Fin 256) (hb : win0_6.index t (0 : Fin 2) * 2048 + 2048 ≤ 16384) :
    iblk m c 0 t (ix2 p k) = V m c main_v7 (ix2 ⟨win0_6.index t (0 : Fin 2) * 2048 + p.val, by have := p.isLt; omega⟩ k) := by
  obtain ⟨e0, e1, -⟩ := idx_facts t
  show V m c main_v7 (((cfg0.win 0).blk t).view.emb (ix2 p k)) = V m c main_v7 _
  refine congrArg (V m c main_v7) (funext fun a => Fin.ext ?_)
  match a with
  | ⟨0, _⟩ => show win0_0.index t (0 : Fin 2) * 2048 + 1 * p.val = win0_6.index t (0 : Fin 2) * 2048 + p.val; omega
  | ⟨1, _⟩ => show win0_0.index t (1 : Fin 2) * 256 + 1 * k.val = k.val; omega

/-- The second feature window's block at point `t`, likewise. -/
theorem feats1_read (c : Dev nD) (t : Fin cfg0.N) (p : Fin 2048) (k : Fin 256) (hb : win0_6.index t (0 : Fin 2) * 2048 + 2048 ≤ 16384) :
    iblk m c 1 t (ix2 p k) = V m c main_v18 (ix2 ⟨win0_6.index t (0 : Fin 2) * 2048 + p.val, by have := p.isLt; omega⟩ k) := by
  obtain ⟨-, -, e0, e1, -⟩ := idx_facts t
  show V m c main_v18 (((cfg0.win 1).blk t).view.emb (ix2 p k)) = V m c main_v18 _
  refine congrArg (V m c main_v18) (funext fun a => Fin.ext ?_)
  match a with
  | ⟨0, _⟩ => show win0_1.index t (0 : Fin 2) * 2048 + 1 * p.val = win0_6.index t (0 : Fin 2) * 2048 + p.val; omega
  | ⟨1, _⟩ => show win0_1.index t (1 : Fin 2) * 256 + 1 * k.val = k.val; omega

/-- The weight and bias windows' blocks are their whole arrays at every point. -/
theorem weights2_read (c : Dev nD) (t : Fin cfg0.N) : iblk m c 2 t = V m c main_v20 := by
  obtain ⟨-, -, -, -, e0, e1, -⟩ := idx_facts t
  funext y
  show V m c main_v20 (((cfg0.win 2).blk t).view.emb y) = V m c main_v20 y
  refine congrArg (V m c main_v20) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem weights3_read (c : Dev nD) (t : Fin cfg0.N) : iblk m c 3 t = V m c main_v22 := by
  obtain ⟨-, -, -, -, -, -, e0, e1, -⟩ := idx_facts t
  funext y
  show V m c main_v22 (((cfg0.win 3).blk t).view.emb y) = V m c main_v22 y
  refine congrArg (V m c main_v22) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem bias4_read (c : Dev nD) (t : Fin cfg0.N) : iblk m c 4 t = V m c main_v23 := by
  obtain ⟨-, -, -, -, -, -, -, -, e0, e1, -⟩ := idx_facts t
  funext y
  show V m c main_v23 (((cfg0.win 4).blk t).view.emb y) = V m c main_v23 y
  refine congrArg (V m c main_v23) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem bias5_read (c : Dev nD) (t : Fin cfg0.N) : iblk m c 5 t = V m c main_v24 := by
  obtain ⟨-, -, -, -, -, -, -, -, -, -, e0, e1, -⟩ := idx_facts t
  funext y
  show V m c main_v24 (((cfg0.win 5).blk t).view.emb y) = V m c main_v24 y
  refine congrArg (V m c main_v24) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-! ## What each point writes back, the cover, and the whole array -/

/-- The result as a function of the operand arrays the kernel is launched on. -/
abbrev result (c : Dev nD) : S16384x512.Idx → EReal :=
  both (V m c main_v7) (V m c main_v18) (V m c main_v20) (V m c main_v22)
    (fun q => V m c main_v23 (ix2 0 q)) (fun q => V m c main_v24 (ix2 0 q))

/-- What point `t` writes back is block `t` of the result. -/
theorem flushed_eq (c : Dev nD) (t : Fin cfg0.N) :
    (dats m 0 c).flushed 6 t = ((cfg0.win 6).blk t).view.read (Elt Ideal) (result m c) := by
  rw [Value.flushed6]
  obtain ⟨-, -, -, -, -, -, -, -, -, -, -, -, e0, e1⟩ := idx_facts t
  have hb : win0_6.index t (0 : Fin 2) * 2048 + 2048 ≤ 16384 := by omega
  funext y
  show out0_6 (iblk m c 0 t) (iblk m c 1 t) (iblk m c 2 t) (iblk m c 3 t) (iblk m c 4 t) (iblk m c 5 t) y
    = result m c (((cfg0.win 6).blk t).view.emb y)
  rw [weights2_read, weights3_read, bias4_read, bias5_read]
  refine (block_entry (iblk m c 0 t) (iblk m c 1 t) (V m c main_v20) (V m c main_v22) (V m c main_v23) (V m c main_v24) y).trans ?_
  refine block_is_both (V m c main_v7) (V m c main_v18) (V m c main_v20) (V m c main_v22) (V m c main_v23) (V m c main_v24)
    (iblk m c 0 t) (iblk m c 1 t) (win0_6.index t (0 : Fin 2) * 2048) hb
    (fun p k => feats0_read m c t p k hb) (fun p k => feats1_read m c t p k hb) y _ ?_ ?_
  · show win0_6.index t (0 : Fin 2) * 2048 + 1 * (y 0).val = win0_6.index t (0 : Fin 2) * 2048 + (y 0).val; omega
  · show win0_6.index t (1 : Fin 2) * 512 + 1 * (y 1).val = (y 1).val; omega

/-- An index of the array is in point `t`'s block iff each coordinate is in the block's range on its axis. -/
theorem mem_blk (t : Fin cfg0.N) (i : S16384x512.Idx) :
    i ∈ ((cfg0.win 6).blk t).view.set ↔ ∀ a : Fin 2, win0_6.index t a * S2048x512.size a ≤ (i a).val
      ∧ (i a).val < win0_6.index t a * S2048x512.size a + S2048x512.size a := by
  show i ∈ ((View.whole main_v25).slice (win0_6.rect t)).set ↔ _
  rw [View.set_slice_whole, Rect.mem_set_unit]
  exact Iff.rfl

/-- Every index is in some point's block: row `r` is in block `r / 2048`. -/
theorem cover (i : S16384x512.Idx) :
    ∃ t : Fin cfg0.N, (cfg0.win 6).flush t = true ∧ i ∈ ((cfg0.win 6).blk t).view.set := by
  have hi0 : (i 0).val < 16384 := idx2_lt0 i
  have hi1 : (i 1).val < 512 := idx2_lt1 i
  obtain ⟨t, ht⟩ := idx_onto ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 512 ≤ (i 1).val ∧ (i 1).val < win0_6.index t (1 : Fin 2) * 512 + 512; omega

/-- The array after the run is the result function of the operand arrays. -/
theorem final (c : Dev nD) : (dats m 0 c).arrAt 6 cfg0.N = result m c :=
  (dats m 0 c).arrAt_eq_of_cover 6 (result m c) (fun t _ => flushed_eq m c t) cover

end Cert.KernelIdeal.Whole

end
-- ==== Proof.ReferenceWhole.lean ====
/-
  The reference's result, entry by entry, is the two clamped affine maps side by side.

  The reference multiplies the looked-up rows by the transposed first weight matrix, adds the first bias to every row,
  does the same with the neighbours' mean, the second matrix and the second bias, joins the two 256-column results
  along the columns, and takes the maximum with zero. Read at a column below 256 the joined array is the first result
  at that column; at a column from 256 on it is the second result at the column less 256.
-/
import proofs.«115470_j69475390980334_2_alg».proof.Proof.Gen.ReferenceIdeal.Read
import proofs.«115470_j69475390980334_2_alg».proof.Proof.AffineRelu
import Idealize.ShloMosaic.Lib.ValueIdx
import Idealize.ShloMosaic.Lib.Pipeline.Value
import Idealize.ShloMosaic.PureOps.Ideal.Laws

noncomputable section

open scoped BigOperators

namespace Cert.ReferenceIdeal.Whole

open Cert.ReferenceIdeal Cert.ReferenceIdeal.Read Idealize.ShloMosaic Idealize.ShloMosaic.ValueIdx Cert.AffineRelu
open Cert.ReferenceIdeal.Facts₀

/-- The first affine map at (r, q): the inner product of row `r` of the looked-up rows with column `q` of the
    transposed weights, plus the bias at `q`. -/
theorem first_affine (x0 : (⟨S16384, .i32⟩ : BufTy).Contents (Elt Ideal)) (x2 : (⟨S100000x256, .f32⟩ : BufTy).Contents (Elt Ideal))
    (x3 : (⟨S256x256, .f32⟩ : BufTy).Contents (Elt Ideal)) (x4 : (⟨S256, .f32⟩ : BufTy).Contents (Elt Ideal)) (r : Fin 16384) (q : Fin 256) :
    val_main_v21 (F := Ideal) x0 x2 x3 x4 (ix2 r q)
      = (∑ k : Fin 256, val_main_v6 (F := Ideal) x0 x2 (ix2 r k) * val_main_v17 (F := Ideal) x3 (ix2 k q)) + x4 (ix1 q) := by
  rw [val_main_v21_apply, val_main_v18_apply, val_main_v20_apply, val_main_v19_apply]
  have e1 : ∀ k : Fin 256, lidx_main_v18 (ix2 r q) k = ix2 r k := fun k => funext fun a => Fin.ext (by
    match a with | ⟨0, _⟩ => rfl | ⟨1, _⟩ => rfl)
  have e2 : ∀ k : Fin 256, ridx_main_v18 (ix2 r q) k = ix2 k q := fun k => funext fun a => Fin.ext (by
    match a with | ⟨0, _⟩ => rfl | ⟨1, _⟩ => rfl)
  have e3 : idx_main_v19 (idx_main_v20 (ix2 r q)) = ix1 q := funext fun a => Fin.ext (by
    match a with | ⟨0, _⟩ => rfl)
  simp only [e1, e2, e3]
  rfl

/-- The second affine map at (r, q), likewise over the neighbours' mean. -/
theorem second_affine (x1 : (⟨S16384x32, .i32⟩ : BufTy).Contents (Elt Ideal)) (x2 : (⟨S100000x256, .f32⟩ : BufTy).Contents (Elt Ideal))
    (x5 : (⟨S256x256, .f32⟩ : BufTy).Contents (Elt Ideal)) (x6 : (⟨S256, .f32⟩ : BufTy).Contents (Elt Ideal)) (r : Fin 16384) (q : Fin 256) :
    val_main_v26 (F := Ideal) x1 x2 x5 x6 (ix2 r q)
      = (∑ k : Fin 256, val_main_v16 (F := Ideal) x1 x2 (ix2 r k) * val_main_v22 (F := Ideal) x5 (ix2 k q)) + x6 (ix1 q) := by
  rw [val_main_v26_apply, val_main_v23_apply, val_main_v25_apply, val_main_v24_apply]
  have e1 : ∀ k : Fin 256, lidx_main_v23 (ix2 r q) k = ix2 r k := fun k => funext fun a => Fin.ext (by
    match a with | ⟨0, _⟩ => rfl | ⟨1, _⟩ => rfl)
  have e2 : ∀ k : Fin 256, ridx_main_v23 (ix2 r q) k = ix2 k q := fun k => funext fun a => Fin.ext (by
    match a with | ⟨0, _⟩ => rfl | ⟨1, _⟩ => rfl)
  have e3 : idx_main_v24 (idx_main_v25 (ix2 r q)) = ix1 q := funext fun a => Fin.ext (by
    match a with | ⟨0, _⟩ => rfl)
  simp only [e1, e2, e3]
  rfl

/-- The reference's result is the two clamped affine maps side by side, of the looked-up rows, the neighbours' mean,
    the two transposed weight matrices and the two biases. -/
theorem result_eq (x0 : (⟨S16384, .i32⟩ : BufTy).Contents (Elt Ideal)) (x1 : (⟨S16384x32, .i32⟩ : BufTy).Contents (Elt Ideal))
    (x2 : (⟨S100000x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) :
    val_main_v28 (F := Ideal) x0 x1 x2 x3 x4 x5 x6
      = both (val_main_v6 (F := Ideal) x0 x2) (val_main_v16 (F := Ideal) x1 x2) (val_main_v17 (F := Ideal) x3)
          (val_main_v22 (F := Ideal) x5) (fun q => x4 (ix1 q)) (fun q => x6 (ix1 q)) := by
  funext i
  have hz : val_main_call0_v0 (F := Ideal) i = 0 := by
    rw [val_main_call0_v0_apply, val_main_call0_cst_apply]; exact Ideal.ofBits_zero_f32
  rw [val_main_v28_apply, hz]
  by_cases h : (i 1).val < 256
  · rw [both_left _ _ _ _ _ _ i ⟨(i 0).val, idx2_lt0 i⟩ ⟨(i 1).val, h⟩ rfl rfl]
    unfold val_main_v27 half
    refine congrArg (max · (0 : EReal)) ?_
    refine (concatenate_pair_apply_left (t := S16384x512) (s₁ := S16384x256) (s₂ := S16384x256) (1 : Fin 2) _ _ concatenates_S16384x256_S16384x256_S16384x512_d1 i rfl
      (ix2 ⟨(i 0).val, idx2_lt0 i⟩ ⟨(i 1).val, h⟩) (fun b => by match b with | ⟨0, _⟩ => rfl | ⟨1, _⟩ => rfl)).trans ?_
    exact first_affine x0 x2 x3 x4 _ _
  · have h2 : (i 1).val - 256 < 256 := by have := idx2_lt1 i; omega
    rw [both_right _ _ _ _ _ _ i ⟨(i 0).val, idx2_lt0 i⟩ ⟨(i 1).val - 256, h2⟩ rfl (by show (i 1).val = (i 1).val - 256 + 256; omega)]
    unfold val_main_v27 half
    refine congrArg (max · (0 : EReal)) ?_
    refine (concatenate_pair_apply_right (t := S16384x512) (s₁ := S16384x256) (s₂ := S16384x256) (1 : Fin 2) _ _ concatenates_S16384x256_S16384x256_S16384x512_d1 i rfl rfl
      (ix2 ⟨(i 0).val, idx2_lt0 i⟩ ⟨(i 1).val - 256, h2⟩) (fun b hb => by
        match b with
        | ⟨0, _⟩ => rfl
        | ⟨1, _⟩ => exact absurd rfl hb)
      (by show (i 1).val - 256 + 256 = (i 1).val; omega)).trans ?_
    exact second_affine x1 x2 x5 x6 _ _

end Cert.ReferenceIdeal.Whole

end
-- ==== Proof.lean ====
/-
  The kernel and its reference compute the same 16384 × 512 array over the extended reals.

  Both programs begin with the same host operations: they look up 16384 rows of the embedding table, look up
  16384 × 32 neighbour rows and average them, and transpose the two weight matrices. The kernel's program then narrows
  these to a shorter float format (no change over the extended reals) and hands them, with the two biases as one-row
  matrices, to a kernel that works in eight blocks of 2048 rows: each block is multiplied by each weight matrix, a
  bias row is added, the result is clamped below at zero, and the two halves are stored side by side. The reference
  multiplies the whole matrices, adds the biases, joins the halves and clamps. Entry (r, j) is on both sides
  `max (Σ_k X (r, k) · A (k, j) + b j) 0` for j < 256 and the same with the second triple at j − 256 otherwise
  (`Cert.AffineRelu.both`). No law of arithmetic beyond that is used, so the finiteness of the inputs is never opened.

  The ideal pass rewrote nothing in the kernel, so `preserves` is trivial; the three frames are the generated ones
  (the reference's is its generated run with the result dropped).
-/
import proofs.«115470_j69475390980334_2_alg».proof.Defs
import proofs.«115470_j69475390980334_2_alg».proof.Proof.Gen.Kernel
import proofs.«115470_j69475390980334_2_alg».proof.Proof.Gen.Kernel.Skeleton
import proofs.«115470_j69475390980334_2_alg».proof.Proof.Gen.Kernel.Launch
import proofs.«115470_j69475390980334_2_alg».proof.Proof.Gen.Kernel.Points
import proofs.«115470_j69475390980334_2_alg».proof.Proof.Gen.Kernel.Frame
import proofs.«115470_j69475390980334_2_alg».proof.Proof.Gen.KernelIdeal
import proofs.«115470_j69475390980334_2_alg».proof.Proof.Gen.KernelIdeal.Skeleton
import proofs.«115470_j69475390980334_2_alg».proof.Proof.Gen.KernelIdeal.Launch
import proofs.«115470_j69475390980334_2_alg».proof.Proof.Gen.KernelIdeal.Points
import proofs.«115470_j69475390980334_2_alg».proof.Proof.Gen.KernelIdeal.Frame
import proofs.«115470_j69475390980334_2_alg».proof.Proof.Gen.ReferenceIdeal
import proofs.«115470_j69475390980334_2_alg».proof.Proof.Gen.Pre_finite_inputs
import proofs.«115470_j69475390980334_2_alg».proof.Proof.Gen.KernelIdeal.Value
import proofs.«115470_j69475390980334_2_alg».proof.Proof.Gen.ReferenceIdeal.Run
import proofs.«115470_j69475390980334_2_alg».proof.Proof.Gen.ReferenceIdeal.Read
import proofs.«115470_j69475390980334_2_alg».proof.Proof.AffineRelu
import proofs.«115470_j69475390980334_2_alg».proof.Proof.HostPrefix
import proofs.«115470_j69475390980334_2_alg».proof.Proof.KernelWhole
import proofs.«115470_j69475390980334_2_alg».proof.Proof.ReferenceWhole
import Idealize.ShloMosaic.Adequacy
import Idealize.ShloMosaic.Init

noncomputable section

namespace Cert.Proof

open Idealize.ShloMosaic Idealize.ShloMosaic.TcCoe Idealize.SL.Sem Idealize.ShloMosaic.ValueIdx Cert.AffineRelu

/-! ## The operands the kernel is launched on are the reference's intermediate arrays -/

/-- A bias vector recast as a one-row matrix, read at (0, q), is the vector at q. -/
theorem bias_row (b : Cert.KernelIdeal.S256.Idx → EReal) (h : Cert.KernelIdeal.S256.ShapeCasts Cert.KernelIdeal.S1x256) :
    (fun q : Fin 256 => shapeCast Cert.KernelIdeal.S1x256 b h (ix2 0 q)) = fun q => b (ix1 q) := by
  funext q
  refine (shapeCast_addUnit_apply ![256] b h (ix2 0 q)).trans (congrArg b (funext fun a => ?_))
  match a with
  | ⟨0, _⟩ => rfl

/-- The kernel's result function, of its operand arrays at launch, is the two clamped affine maps of the reference's
    looked-up rows, neighbours' mean and transposed weights: the host operations before the launch are the
    reference's own, and narrowing a float format is the identity over the extended reals. -/
theorem kernel_result (m : (ℓ : Loc Cert.KernelIdeal.nD Cert.KernelIdeal.τ Cert.KernelIdeal.sig) → Buf (Elt Ideal) ℓ)
    (c : Dev Cert.KernelIdeal.nD) :
    Cert.KernelIdeal.Whole.result m c
      = both (Cert.ReferenceIdeal.Read.val_main_v6 (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg2)))
          (Cert.ReferenceIdeal.Read.val_main_v16 (F := Ideal) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)))
          (Cert.ReferenceIdeal.Read.val_main_v17 (F := Ideal) (m ((c.tc : Thread Cert.KernelIdeal.nD Cert.KernelIdeal.τ).loc Cert.KernelIdeal.main_arg3)))
          (Cert.ReferenceIdeal.Read.val_main_v22 (F := Ideal) (m ((c.tc : Thread Cert.KernelIdeal.nD Cert.KernelIdeal.τ).loc Cert.KernelIdeal.main_arg5)))
          (fun q => m ((c.tc : Thread Cert.KernelIdeal.nD Cert.KernelIdeal.τ).loc Cert.KernelIdeal.main_arg4) (ix1 q))
          (fun q => m ((c.tc : Thread Cert.KernelIdeal.nD Cert.KernelIdeal.τ).loc Cert.KernelIdeal.main_arg6) (ix1 q)) := by
  show both _ _ _ _ _ _ = _
  rw [Cert.KernelIdeal.Operands.operand0, Cert.KernelIdeal.Operands.operand1, Cert.KernelIdeal.Operands.operand2,
    Cert.KernelIdeal.Operands.operand3, Cert.KernelIdeal.Operands.operand4, Cert.KernelIdeal.Operands.operand5,
    bias_row, bias_row]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end, with the result array at the two clamped affine
    maps side by side (of the kernel's operand arrays at launch) and the arguments unchanged. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.ReferenceIdeal.Whole.result_eq,
      (hagree c).1, (hagree c).2.1, (hagree c).2.2.1, (hagree c).2.2.2.1, (hagree c).2.2.2.2.1,
      (hagree c).2.2.2.2.2.1, (hagree c).2.2.2.2.2.2]
    exact (kernel_result m c).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
